-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S1x2 : Shape := ⟨2, ![1, 2]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S1x2 : S_.BroadcastsInDim S1x2 (![] : Fin 0 → Fin S1x2.rank)
  reducesTo_S1x2_S_d0_1 : S1x2.ReducesTo [0, 1] S_

variable [Facts]

def fn {F : FTy → Type} [FloatOps F] (main_arg0 : FVec F S4194304x8 .f32) (main_arg1 : FVec F S1x2 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S1x2 .f32 := Host.absf main_arg1
  let main_cst_0 : FVec F S_ .f32 := constant S_ .f32 0x7F800000#32
  let main_v5 : FVec F S1x2 .f32 := broadcastInDim S1x2 ![] bcast_S_S1x2 main_cst_0
  let main_v6 : IVec S1x2 1 := cmpf .olt main_v4 main_v5
  let main_c_1 : IVec S_ 1 := constantI S_ 1 1#1
  let main_v7 : IVec S_ 1 := (fun x v => Host.reduce IntOp.andi x v reducesTo_S1x2_S_d0_1 h_S_) main_v6 main_c_1
  let main_v8 : IVec S_ 1 := andi main_v3 main_v7
  main_v8
-- ==== Kernel.lean ====
abbrev S4194304x8 : Shape := ⟨2, ![4194304, 8]⟩
abbrev S1x2 : Shape := ⟨2, ![1, 2]⟩
abbrev S262144x8 : Shape := ⟨2, ![262144, 8]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4194304x8, .f32⟩
  | .hbm, ⟨1, _⟩ => ⟨S1x2, .f32⟩
  | .hbm, ⟨2, _⟩ => ⟨S4194304x8, .f32⟩
  | .local _ .vmem, ⟨0, _⟩ => ⟨S1x2, .f32⟩
  | .local _ .vmem, ⟨1, _⟩ => ⟨S262144x8, .f32⟩
  | .local _ .vmem, ⟨2, _⟩ => ⟨S262144x8, .f32⟩
  | .local _ .vmem, ⟨3, _⟩ => ⟨S262144x8, .f32⟩
  | .local _ .vmem, ⟨4, _⟩ => ⟨S262144x8, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S262144x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2_S1x1_0_0 : ∀ a, (![0, 0] : Fin 2 → Nat) a + S1x1.size a ≤ S1x2.size a
  h_S1x1 : 0 < S1x1.numel
  inpos_S1x1_p0_0 : ∀ a, (![0, 0] : Fin 2 → Nat) a < S1x1.size a
  inb_S1x2_S1x1_0_1 : ∀ a, (![0, 1] : Fin 2 → Nat) a + S1x1.size a ≤ S1x2.size a
  inb_S262144x8_S262144x8_0_0 : ∀ a, (![0, 0] : Fin 2 → Nat) a + S262144x8.size a ≤ S262144x8.size a
  h_S262144x8 : 0 < S262144x8.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2.size a ≤ S1x2.size a
  hwx0_0 : ∀ i : grid0.Coords, EltTy.bits .f32 = 32 ∨ (Rect.block (s := S1x2) S1x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144x8.size a ≤ S4194304x8.size a
  hwx0_1 : ∀ i : grid0.Coords, EltTy.bits .f32 = 32 ∨ (Rect.block (s := S4194304x8) S262144x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144x8.size a ≤ S4194304x8.size a
  hwx0_2 : ∀ i : grid0.Coords, EltTy.bits .f32 = 32 ∨ (Rect.block (s := S4194304x8) S262144x8.size (cc0_transform_2 i) (hinb0_2 i)).WholeWords (EltTy.packing .f32)

variable [Facts₀]

abbrev win0_0 : Pipeline.Window sig grid0 :=
  Pipeline.Window.ofSpec (Memref.whole main_arg1) S1x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S262144x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S262144x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S1x2 : Shape := ⟨2, ![1, 2]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S1x2, .f32⟩
  | .hbm, ⟨2, _⟩ => ⟨S1x1, .f32⟩
  | .hbm, ⟨3, _⟩ => ⟨S1x1, .f32⟩
  | .hbm, ⟨4, _⟩ => ⟨S4194304x8, .f32⟩
  | .hbm, ⟨5, _⟩ => ⟨S4194304x8, .f32⟩
  | .hbm, ⟨6, _⟩ => ⟨S4194304x8, .f32⟩
  | .hbm, ⟨7, _⟩ => ⟨S4194304x8, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  slices_S1x2_S1x1_0_0 : S1x2.Slices ![0, 0] S1x1
  slices_S1x2_S1x1_0_1 : S1x2.Slices ![0, 1] S1x1
  bcast_S1x1_S4194304x8_0_1 : S1x1.BroadcastsInDim S4194304x8 (![0, 1] : Fin 2 → Fin S4194304x8.rank)

variable [Facts₀]

class Facts : Prop extends Facts₀ where

variable [Facts]
-- ==== Proof.Clamp.lean ====
/-
  Clamping an array to an interval whose two ends are read from a parameter array.

  `x` is a 4194304 × 8 array of floats and `p` a 1 × 2 array holding the interval's ends, `lo = p[0, 0]` and
  `hi = p[0, 1]`. The clamped array holds, at every index `i`,

      min hi (max lo x[i]).

  When `lo ≤ hi` this is the nearest point of the interval `[lo, hi]` to `x[i]` (the projection onto a box, taken
  coordinate by coordinate); the formula is taken as written and `lo ≤ hi` is never needed. `max` and `min` are the float
  format's own maximum and minimum, so the definition makes sense for any reading `F` of the floats, and nothing
  below uses a property of either operation: two programs that both evaluate this expression agree whatever
  `max` and `min` mean.
-/
import Idealize.ShloMosaic.PureOps.Vector
import Idealize.ShloMosaic.Lib.ValueIdx

noncomputable section

namespace Cert.Clamp

open Idealize.ShloMosaic Idealize.ShloMosaic.ValueIdx

variable {F : FTy → Type} [FloatOps F]

/-- The shape of the parameter array: one row of two entries. -/
abbrev Ends : Shape := ⟨2, ![1, 2]⟩
/-- The shape of the array that is clamped. -/
abbrev Arr : Shape := ⟨2, ![4194304, 8]⟩

/-- The lower end of the interval: entry `(0, 0)` of the parameter array. -/
def lower (p : Ends.Idx → F .f32) : F .f32 := p (ix2 (0 : Fin 1) (0 : Fin 2))

/-- The upper end of the interval: entry `(0, 1)` of the parameter array. -/
def upper (p : Ends.Idx → F .f32) : F .f32 := p (ix2 (0 : Fin 1) (1 : Fin 2))

/-- One value clamped between `lo` and `hi`: first raised to at least `lo`, then lowered to at most `hi`. -/
def clamp1 (lo hi v : F .f32) : F .f32 := FloatOps.minimumf hi (FloatOps.maximumf lo v)

/-- The whole array clamped, index by index, between the two ends the parameter array holds. -/
def clamped (x : Arr.Idx → F .f32) (p : Ends.Idx → F .f32) : Arr.Idx → F .f32 :=
  fun i => clamp1 (lower p) (upper p) (x i)

theorem clamped_apply (x : Arr.Idx → F .f32) (p : Ends.Idx → F .f32) (i : Arr.Idx) :
    clamped x p i = FloatOps.minimumf (p (ix2 (0 : Fin 1) (1 : Fin 2)))
      (FloatOps.maximumf (p (ix2 (0 : Fin 1) (0 : Fin 2))) (x i)) := rfl

end Cert.Clamp

end
-- ==== Proof.RefClamp.lean ====
/-
  The reference computes the clamped array.

  The reference takes the two one-entry slices `p[0:1, 0:1]` and `p[0:1, 1:2]` of the parameter array, spreads each
  over the whole 4194304 × 8 shape, and forms `min (spread hi) (max (spread lo) x)`. Read at an index `i`: a spread
  one-entry array is its one entry wherever it is read, and the one entry of the slice `p[0:1, k:k+1]` is `p[0, k]`.
  So the result at `i` is `min p[0, 1] (max p[0, 0] x[i])`, the clamp of `x[i]`. The only work is naming the two
  indices the slices are read at.
-/
import proofs.«159916_j22797686408015_1_alg».proof.Proof.Gen.ReferenceIdeal.Read
import proofs.«159916_j22797686408015_1_alg».proof.Proof.Clamp

noncomputable section

namespace Cert.ReferenceIdeal.RefValue

open Cert.ReferenceIdeal Cert.ReferenceIdeal.Read Idealize.ShloMosaic Idealize.ShloMosaic.ValueIdx

variable {F : FTy → Type} [FloatOps F]

/-- Wherever the spread lower end is read, it is read at entry `(0, 0)` of the parameter array: the slice starts at
    column `0` and the spread reads the slice's only entry. -/
theorem lower_index (i : S4194304x8.Idx) :
    idx_main_v0 (idx_main_call0_v0 i) = ix2 (0 : Fin 1) (0 : Fin 2) :=
  funext fun a => Fin.ext (by match a with | ⟨0, _⟩ => rfl | ⟨1, _⟩ => rfl)

/-- Wherever the spread upper end is read, it is read at entry `(0, 1)`: the slice starts at column `1`. -/
theorem upper_index (i : S4194304x8.Idx) :
    idx_main_v1 (idx_main_call0_v2 i) = ix2 (0 : Fin 1) (1 : Fin 2) :=
  funext fun a => Fin.ext (by match a with | ⟨0, _⟩ => rfl | ⟨1, _⟩ => rfl)

/-- The reference's result, as a function of its two argument arrays, is the clamped array. -/
theorem result_eq (x : (⟨S4194304x8, .f32⟩ : BufTy).Contents (Elt F)) (p : (⟨S1x2, .f32⟩ : BufTy).Contents (Elt F)) :
    val_main_v2 (F := F) x p = Cert.Clamp.clamped (F := F) x p := by
  funext i
  rw [val_main_v2_apply, val_main_call0_v2_apply, val_main_v1_apply, val_main_call0_v1_apply,
    val_main_call0_v0_apply, val_main_v0_apply, lower_index, upper_index]
  rfl

end Cert.ReferenceIdeal.RefValue

end
-- ==== Proof.KernelClamp.lean ====
/-
  The kernel leaves the clamped array.

  The kernel works on the 4194304 × 8 array in 16 blocks of 262144 rows; block `t` holds rows
  `262144 · t … 262144 · t + 262143` and all 8 columns. At every block it also has the whole 1 × 2 parameter array
  before it. From the parameter array it reads `lo` at entry `(0, 0)` and `hi` at entry `(0, 1)`, and it writes
  `min hi (max lo v)` for every entry `v` of the input block into the output block, which sits at the same rows as the
  input block. So what block `t` writes back is the clamped array read on block `t`'s rows; the 16 blocks cover every
  row (row `r` lies in block `r / 262144`), hence the output array ends as the clamped array.
-/
import proofs.«159916_j22797686408015_1_alg».proof.Proof.Gen.KernelIdeal.Value
import proofs.«159916_j22797686408015_1_alg».proof.Proof.Clamp

set_option maxRecDepth 16384

noncomputable section

namespace Cert.KernelIdeal.ClampValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The offset `(0, 0)` is the zero offset. -/
theorem origin : (![0, 0] : Fin 2 → Nat) = fun _ => 0 := funext fun a => by fin_cases a <;> rfl

/-- Where the blocks sit, decided over the 16 grid points: the parameter array's block is always the whole array;
    the input block and the output block of point `t` have the same block index, which is `(t, 0)`. -/
theorem block_indices : ∀ t : Fin cfg0.N,
    win0_0.index t (0 : Fin 2) = 0 ∧ win0_0.index t (1 : Fin 2) = 0
    ∧ win0_1.index t (0 : Fin 2) = win0_2.index t (0 : Fin 2) ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- WHAT POINT `t` WRITES BACK is the clamped array read on block `t`. -/
theorem flushed_eq (c : Dev nD) (t : Fin cfg0.N) :
    (dats m 0 c).flushed 2 t
      = ((cfg0.win 2).blk t).view.read (Elt F) (Cert.Clamp.clamped (F := F) (V m c main_arg0) (V m c main_arg1)) := by
  rw [Cert.KernelIdeal.Value.flushed2]
  unfold out0_2
  rw [View.canon_unit_zero origin]
  simp only [View.ld_unit_zero (S := S262144x8) origin]
  obtain ⟨a0, a1, b0, b1, -, -⟩ := block_indices t
  funext j
  show FloatOps.minimumf (V m c main_arg1 (((cfg0.win 0).blk t).view.emb (r0_1.emb _)))
        (FloatOps.maximumf (V m c main_arg1 (((cfg0.win 0).blk t).view.emb (r0_0.emb _)))
          (V m c main_arg0 (((cfg0.win 1).blk t).view.emb j)))
      = FloatOps.minimumf (V m c main_arg1 (ix2 (0 : Fin 1) (1 : Fin 2)))
          (FloatOps.maximumf (V m c main_arg1 (ix2 (0 : Fin 1) (0 : Fin 2)))
            (V m c main_arg0 (((cfg0.win 2).blk t).view.emb j)))
  have hlo : ∀ e : S1x1.Idx, ((cfg0.win 0).blk t).view.emb (r0_0.emb e) = ix2 (0 : Fin 1) (0 : Fin 2) := by
    intro e; funext a; apply Fin.ext
    match a with
    | ⟨0, _⟩ =>
      show win0_0.index t (0 : Fin 2) * 1 + 1 * (0 + 1 * (e 0).val) = 0
      have he : (e 0).val < 1 := (e 0).isLt
      omega
    | ⟨1, _⟩ =>
      show win0_0.index t (1 : Fin 2) * 2 + 1 * (0 + 1 * (e 1).val) = 0
      have he : (e 1).val < 1 := (e 1).isLt
      omega
  have hhi : ∀ e : S1x1.Idx, ((cfg0.win 0).blk t).view.emb (r0_1.emb e) = ix2 (0 : Fin 1) (1 : Fin 2) := by
    intro e; funext a; apply Fin.ext
    match a with
    | ⟨0, _⟩ =>
      show win0_0.index t (0 : Fin 2) * 1 + 1 * (0 + 1 * (e 0).val) = 0
      have he : (e 0).val < 1 := (e 0).isLt
      omega
    | ⟨1, _⟩ =>
      show win0_0.index t (1 : Fin 2) * 2 + 1 * (1 + 1 * (e 1).val) = 1
      have he : (e 1).val < 1 := (e 1).isLt
      omega
  have hx : ((cfg0.win 1).blk t).view.emb j = ((cfg0.win 2).blk t).view.emb j := by
    funext a; apply Fin.ext
    match a with
    | ⟨0, _⟩ =>
      show win0_1.index t (0 : Fin 2) * 262144 + 1 * (j 0).val = win0_2.index t (0 : Fin 2) * 262144 + 1 * (j 0).val
      omega
    | ⟨1, _⟩ =>
      show win0_1.index t (1 : Fin 2) * 8 + 1 * (j 1).val = win0_2.index t (1 : Fin 2) * 8 + 1 * (j 1).val
      omega
  rw [hlo, hhi, hx]

/-- An index of the array lies in block `t` exactly when, on each axis, its coordinate lies in the block's range:
    the block starts at (block index) × (block size) and is one block size long. -/
theorem mem_block (t : Fin cfg0.N) (i : S4194304x8.Idx) :
    i ∈ ((cfg0.win 2).blk t).view.set
      ↔ ∀ a : Fin 2, win0_2.index t a * S262144x8.size a ≤ (i a).val
          ∧ (i a).val < win0_2.index t a * S262144x8.size a + S262144x8.size a := by
  show i ∈ ((View.whole main_v0).slice (win0_2.rect t)).set ↔ _
  rw [View.set_slice_whole, Rect.mem_set_unit]
  exact Iff.rfl

/-- THE BLOCKS COVER THE ARRAY: row `r` lies in the block of point `r / 262144`, and every block holds all 8 columns. -/
theorem covered (i : S4194304x8.Idx) :
    ∃ t : Fin cfg0.N, (cfg0.win 2).flush t = true ∧ i ∈ ((cfg0.win 2).blk t).view.set := by
  have hi0 : (i 0).val < 4194304 := (i 0).isLt
  have hi1 : (i 1).val < 8 := (i 1).isLt
  have ht : (i 0).val / 262144 < cfg0.N := by show (i 0).val / 262144 < 16; omega
  obtain ⟨-, -, -, -, q0, q1⟩ := block_indices ⟨(i 0).val / 262144, ht⟩
  refine ⟨⟨(i 0).val / 262144, ht⟩, flush0_2 _, ?_⟩
  rw [mem_block]
  intro a
  match a with
  | ⟨0, _⟩ =>
    show win0_2.index ⟨(i 0).val / 262144, ht⟩ (0 : Fin 2) * 262144 ≤ (i 0).val
      ∧ (i 0).val < win0_2.index ⟨(i 0).val / 262144, ht⟩ (0 : Fin 2) * 262144 + 262144
    rw [q0]
    show (i 0).val / 262144 * 262144 ≤ (i 0).val ∧ (i 0).val < (i 0).val / 262144 * 262144 + 262144
    omega
  | ⟨1, _⟩ =>
    show win0_2.index ⟨(i 0).val / 262144, ht⟩ (1 : Fin 2) * 8 ≤ (i 1).val
      ∧ (i 1).val < win0_2.index ⟨(i 0).val / 262144, ht⟩ (1 : Fin 2) * 8 + 8
    rw [q1]
    omega

/-- THE OUTPUT ARRAY after the run is the clamped array of the two argument arrays. -/
theorem final (c : Dev nD) :
    (dats m 0 c).arrAt 2 cfg0.N
      = Cert.Clamp.clamped (F := F) (m ((c : Thread nD τ).loc main_arg0)) (m ((c : Thread nD τ).loc main_arg1)) :=
  (dats m 0 c).arrAt_eq_of_cover 2
    (Cert.Clamp.clamped (F := F) (V m c main_arg0) (V m c main_arg1)) (fun t _ => flushed_eq m c t) covered

/-- The kernel's run: every weakly fair execution terminates with the result array at the clamped array and the two
    argument arrays unchanged. -/
theorem run : θ_run defs (onTc (τ := τ) (main (F := F))) ⟨m, fun _ => 0, ρ⟩ fun r => ∀ c : Dev nD,
      r.2.mem ((c : Thread nD τ).loc main_v0)
        = Cert.Clamp.clamped (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ClampValue

end
-- ==== Proof.lean ====
/-
  A kernel that clamps an array to an interval, against `jnp.clip`.

  The inputs are a 4194304 × 8 array `x` of floats and a 1 × 2 array `p` holding an interval's ends, `lo = p[0, 0]`
  and `hi = p[0, 1]`. Both programs compute, at every index `i`,

      min hi (max lo x[i])        (Proof/Clamp.lean, `Cert.Clamp.clamped`).

  The kernel does so block by block: 16 blocks of 262144 rows, the same rows read and written, the two ends read from
  the parameter array at every block; the blocks cover every row, so the output array ends as the clamped array
  (Proof/KernelClamp.lean, over the generated frame run with its output array named). The reference slices the two
  ends out of `p`, spreads each over the whole shape and applies `max` then `min`; read at an index this is the same
  expression (Proof/RefClamp.lean, over the generated run of the reference and its read-at-an-index lemmas).

  The two sides are the same expression with the operands in the same order, so no law of `max` or `min` and no
  finiteness of the inputs is needed: the precondition is never opened. The idealization rewrote nothing, so the
  kernel's idealization is its own text read over the extended reals and `preserves` has nothing to state. The three
  frames are the generated ones (the reference's is its generated run with the result forgotten).
-/
import proofs.«159916_j22797686408015_1_alg».proof.Defs
import proofs.«159916_j22797686408015_1_alg».proof.Proof.Gen.Kernel
import proofs.«159916_j22797686408015_1_alg».proof.Proof.Gen.Kernel.Skeleton
import proofs.«159916_j22797686408015_1_alg».proof.Proof.Gen.Kernel.Launch
import proofs.«159916_j22797686408015_1_alg».proof.Proof.Gen.Kernel.Points
import proofs.«159916_j22797686408015_1_alg».proof.Proof.Gen.Kernel.Frame
import proofs.«159916_j22797686408015_1_alg».proof.Proof.Gen.KernelIdeal
import proofs.«159916_j22797686408015_1_alg».proof.Proof.Gen.KernelIdeal.Skeleton
import proofs.«159916_j22797686408015_1_alg».proof.Proof.Gen.KernelIdeal.Launch
import proofs.«159916_j22797686408015_1_alg».proof.Proof.Gen.KernelIdeal.Points
import proofs.«159916_j22797686408015_1_alg».proof.Proof.Gen.KernelIdeal.Frame
import proofs.«159916_j22797686408015_1_alg».proof.Proof.Gen.ReferenceIdeal
import proofs.«159916_j22797686408015_1_alg».proof.Proof.Gen.Pre_finite_inputs
import proofs.«159916_j22797686408015_1_alg».proof.Proof.Gen.KernelIdeal.Value
import proofs.«159916_j22797686408015_1_alg».proof.Proof.Gen.ReferenceIdeal.Run
import proofs.«159916_j22797686408015_1_alg».proof.Proof.Gen.ReferenceIdeal.Read
import proofs.«159916_j22797686408015_1_alg».proof.Proof.Clamp
import proofs.«159916_j22797686408015_1_alg».proof.Proof.RefClamp
import proofs.«159916_j22797686408015_1_alg».proof.Proof.KernelClamp
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to state. -/
theorem preserves : Cert.preserves_Kernel_KernelIdeal := trivial

/-- Over the extended reals, from memories that agree on `x` and `p`, the kernel's output array and the reference's
    result are both the clamped array of `x` between the ends `p` holds. -/
theorem algebraic : Cert.algebraic_KernelIdeal_ReferenceIdeal := by
  intro m ρ m' ρ' _ hagree
  refine ⟨_, Cert.KernelIdeal.ClampValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
